-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S4096x512 : Shape := ⟨2, ![4096, 512]⟩
abbrev S4096 : Shape := ⟨1, ![4096]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8x2048x512 .f32) (main_arg1 : FVec F S4096x512 .f32) (main_arg2 : FVec F S4096x512 .f32) (main_arg3 : FVec F S4096 .f32) (main_arg4 : FVec F S4096 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_v13 main_v16
-- ==== Kernel.lean ====
abbrev S8x2048x512 : Shape := ⟨3, ![8, 2048, 512]⟩
abbrev S4096x512 : Shape := ⟨2, ![4096, 512]⟩
abbrev S4096 : Shape := ⟨1, ![4096]⟩
abbrev S16384x512 : Shape := ⟨2, ![16384, 512]⟩
abbrev S1x4096 : Shape := ⟨2, ![1, 4096]⟩
abbrev S256x512 : Shape := ⟨2, ![256, 512]⟩
abbrev S256 : Shape := ⟨1, ![256]⟩
abbrev S256x1 : Shape := ⟨2, ![256, 1]⟩
abbrev S512x4096 : Shape := ⟨2, ![512, 4096]⟩
abbrev S256x4096 : Shape := ⟨2, ![256, 4096]⟩

abbrev nBuf : Space → Nat
  | .hbm => 13
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S4096, .f32⟩
  | .hbm, ⟨5, _⟩ => ⟨S16384x512, .f32⟩
  | .hbm, ⟨6, _⟩ => ⟨S16384x512, .bf16⟩
  | .hbm, ⟨7, _⟩ => ⟨S4096x512, .bf16⟩
  | .hbm, ⟨8, _⟩ => ⟨S4096x512, .bf16⟩
  | .hbm, ⟨9, _⟩ => ⟨S1x4096, .f32⟩
  | .hbm, ⟨10, _⟩ => ⟨S1x4096, .f32⟩
  | .hbm, ⟨11, _⟩ => ⟨S16384x512, .f32⟩
  | .hbm, ⟨12, _⟩ => ⟨S8x2048x512, .f32⟩
  | .local _ .vmem, ⟨0, _⟩ => ⟨S256x512, .bf16⟩
  | .local _ .vmem, ⟨1, _⟩ => ⟨S256x512, .bf16⟩
  | .local _ .vmem, ⟨2, _⟩ => ⟨S4096x512, .bf16⟩
  | .local _ .vmem, ⟨3, _⟩ => ⟨S4096x512, .bf16⟩
  | .local _ .vmem, ⟨4, _⟩ => ⟨S1x4096, .f32⟩
  | .local _ .vmem, ⟨5, _⟩ => ⟨S1x4096, .f32⟩
  | .local _ .vmem, ⟨6, _⟩ => ⟨S256x512, .f32⟩
  | .local _ .vmem, ⟨7, _⟩ => ⟨S256x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x2048x512_S16384x512 : S8x2048x512.ShapeCasts S16384x512
  bitsLt_bf16_f32 : FTy.bits .bf16 < FTy.bits .f32
  shapeCasts_S4096_S1x4096 : S4096.ShapeCasts S1x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  reduces_S256x512_S256 : S256x512.Reduces [1] S256
  shapeCasts_S256_S256x1 : S256.ShapeCasts S256x1
  reduces_S4096x512_S4096 : S4096x512.Reduces [1] S4096
  transposes_S4096x512_p1_0_S512x4096 : S4096x512.Transposes [1, 0] S512x4096
  broadcasts_S256x1_S256x4096 : S256x1.Broadcasts S256x4096
  broadcasts_S1x4096_S256x4096 : S1x4096.Broadcasts S256x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  reduces_S256x4096_S256 : S256x4096.Reduces [1] S256
  shapeCasts_S16384x512_S8x2048x512 : S16384x512.ShapeCasts S8x2048x512
  dot_S256x512_S512x4096_S256x4096_1_0_0_1_n_n_wf : DotDims.WF S256x512 S512x4096 S256x4096 [1] [0] [0] [1] [] []
  dot_S256x4096_S4096x512_S256x512_1_0_0_1_n_n_wf : DotDims.WF S256x4096 S4096x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S16384x512.size a
  hwx0_0 : ∀ i : grid0.Coords, EltTy.bits .bf16 = 32 ∨ (Rect.block (s := S16384x512) S256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S16384x512.size a
  hwx0_5 : ∀ i : grid0.Coords, EltTy.bits .f32 = 32 ∨ (Rect.block (s := S16384x512) S256x512.size (cc0_transform_5 i) (hinb0_5 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf

abbrev win0_0 : Pipeline.Window sig grid0 :=
  Pipeline.Window.ofSpec (Memref.whole main_v1) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S256x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S4096x512 : Shape := ⟨2, ![4096, 512]⟩
abbrev S4096 : Shape := ⟨1, ![4096]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x4096 : Shape := ⟨2, ![16384, 4096]⟩
abbrev S512x4096 : Shape := ⟨2, ![512, 4096]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S4096x512, .f32⟩
  | .hbm, ⟨2, _⟩ => ⟨S4096x512, .f32⟩
  | .hbm, ⟨3, _⟩ => ⟨S4096, .f32⟩
  | .hbm, ⟨4, _⟩ => ⟨S4096, .f32⟩
  | .hbm, ⟨5, _⟩ => ⟨S16384x512, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S4096x512, .f32⟩
  | .hbm, ⟨11, _⟩ => ⟨S_, .f32⟩
  | .hbm, ⟨12, _⟩ => ⟨S4096, .f32⟩
  | .hbm, ⟨13, _⟩ => ⟨S1x4096, .f32⟩
  | .hbm, ⟨14, _⟩ => ⟨S16384x4096, .f32⟩
  | .hbm, ⟨15, _⟩ => ⟨S16384x4096, .f32⟩
  | .hbm, ⟨16, _⟩ => ⟨S16384x4096, .f32⟩
  | .hbm, ⟨17, _⟩ => ⟨S512x4096, .f32⟩
  | .hbm, ⟨18, _⟩ => ⟨S16384x4096, .f32⟩
  | .hbm, ⟨19, _⟩ => ⟨S_, .f32⟩
  | .hbm, ⟨20, _⟩ => ⟨S16384x4096, .f32⟩
  | .hbm, ⟨21, _⟩ => ⟨S16384x4096, .f32⟩
  | .hbm, ⟨22, _⟩ => ⟨S16384x4096, .f32⟩
  | .hbm, ⟨23, _⟩ => ⟨S_, .f32⟩
  | .hbm, ⟨24, _⟩ => ⟨S16384x4096, .f32⟩
  | .hbm, ⟨25, _⟩ => ⟨S16384x4096, .f32⟩
  | .hbm, ⟨26, _⟩ => ⟨S16384x4096, .f32⟩
  | .hbm, ⟨27, _⟩ => ⟨S4096, .f32⟩
  | .hbm, ⟨28, _⟩ => ⟨S_, .f32⟩
  | .hbm, ⟨29, _⟩ => ⟨S4096, .f32⟩
  | .hbm, ⟨30, _⟩ => ⟨S4096, .f32⟩
  | .hbm, ⟨31, _⟩ => ⟨S4096, .f32⟩
  | .hbm, ⟨32, _⟩ => ⟨S16384x4096, .f32⟩
  | .hbm, ⟨33, _⟩ => ⟨S1x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S16384x4096, .f32⟩
  | .hbm, ⟨44, _⟩ => ⟨S16384x4096, .f32⟩
  | .hbm, ⟨45, _⟩ => ⟨S16384x512, .f32⟩
  | .hbm, ⟨46, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  shapeCasts_S8x2048x512_S16384x512 : S8x2048x512.ShapeCasts S16384x512
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S4096x512_S4096_d1 : S4096x512.ReducesTo [1] S4096
  bcast_S4096_S1x4096_1 : S4096.BroadcastsInDim S1x4096 (![1] : Fin 1 → Fin S1x4096.rank)
  bcast_S16384x1_S16384x4096_0_1 : S16384x1.BroadcastsInDim S16384x4096 (![0, 1] : Fin 2 → Fin S16384x4096.rank)
  bcast_S1x4096_S16384x4096_0_1 : S1x4096.BroadcastsInDim S16384x4096 (![0, 1] : Fin 2 → Fin S16384x4096.rank)
  transposes_S4096x512_S512x4096_1_0 : S4096x512.Transposes [1, 0] S512x4096
  bcast_S_S16384x4096 : S_.BroadcastsInDim S16384x4096 (![] : Fin 0 → Fin S16384x4096.rank)
  bcast_S_S4096 : S_.BroadcastsInDim S4096 (![] : Fin 0 → Fin S4096.rank)
  reducesTo_S16384x4096_S16384_d1 : S16384x4096.ReducesTo [1] S16384
  bcast_S_S16384x1 : S_.BroadcastsInDim S16384x1 (![] : Fin 0 → Fin S16384x1.rank)
  shapeCasts_S16384x512_S8x2048x512 : S16384x512.ShapeCasts S8x2048x512
  dot_S16384x512_S512x4096_S16384x4096_1_0_0_1_n_n_wf : DotDims.WF S16384x512 S512x4096 S16384x4096 [1] [0] [0] [1] [] []
  dot_S16384x4096_S4096x512_S16384x512_1_0_0_1_n_n_wf : DotDims.WF S16384x4096 S4096x512 S16384x512 [1] [0] [0] [1] [] []

variable [Facts₀]

def dot_S16384x512_S512x4096_S16384x4096_1_0_0_1_n_n : DotDims S16384x512 S512x4096 S16384x4096 where
  lhsContracting := [1]
  rhsContracting := [0]
  lhsNonContracting := [0]
  rhsNonContracting := [1]
  lhsBatch := []
  rhsBatch := []
  wf := dot_S16384x512_S512x4096_S16384x4096_1_0_0_1_n_n_wf
def dot_S16384x4096_S4096x512_S16384x512_1_0_0_1_n_n : DotDims S16384x4096 S4096x512 S16384x512 where
  lhsContracting := [1]
  rhsContracting := [0]
  lhsNonContracting := [0]
  rhsNonContracting := [1]
  lhsBatch := []
  rhsBatch := []
  wf := dot_S16384x4096_S4096x512_S16384x512_1_0_0_1_n_n_wf

class Facts : Prop extends Facts₀ where

variable [Facts]
-- ==== Proof.RbfSpec.lean ====
/-
  The function both programs compute, one output row at a time.

  A row `x ∈ ℝ̄^512` is compared with 4096 centres `P n ∈ ℝ̄^512`: its distance to centre `n` is
  `√(max(|x|² + |P n|² − 2·⟨x, P n⟩, 0))` (the expansion of `|x − P n|²`, clamped at zero), the centre's width is
  `(|T n| + 0.1) · S n`, its weight `exp(−distance / width)`, and the row's result at feature `d` is the weighted
  combination `∑ₙ (weight n / (∑ₙ' weight n' + 1e-8)) · V n d` of the centres' value vectors.
  Everything is on the extended reals; the three float literals stay the words the programs print (the same word on
  both sides is never evaluated).
-/
import Idealize.ShloMosaic.PureOps.Ideal
import Idealize.ShloMosaic.Lib.ValueIdx

noncomputable section

open scoped BigOperators

namespace Cert.Rbf

open Idealize.ShloMosaic

/-- `|x|²` as the sum of the squared entries. -/
def sqnorm (x : Fin 512 → EReal) : EReal := ∑ k : Fin 512, x k * x k

/-- `⟨x, y⟩`. -/
def dotp (x y : Fin 512 → EReal) : EReal := ∑ k : Fin 512, x k * y k

/-- The distance from the row `x` to centre `n`: `√(max(|x|² + |P n|² − 2·⟨x, P n⟩, 0))`. -/
def dist (x : Fin 512 → EReal) (P : Fin 4096 → Fin 512 → EReal) (n : Fin 4096) : EReal :=
  Ideal.sqrt (max (sqnorm x + sqnorm (P n) - Ideal.ofBits .f32 0x40000000#32 * dotp x (P n)) 0)

/-- Centre `n`'s width: `(|T n| + 0.1) · S n`. -/
def width (T S : Fin 4096 → EReal) (n : Fin 4096) : EReal :=
  (max (T n) (-(T n)) + Ideal.ofBits .f32 0x3DCCCCCD#32) * S n

/-- Centre `n`'s weight for the row `x`: `exp(−distance / width)`. -/
def weight (x : Fin 512 → EReal) (P : Fin 4096 → Fin 512 → EReal) (T S : Fin 4096 → EReal) (n : Fin 4096) : EReal :=
  Ideal.exp (Ideal.div (-(dist x P n)) (width T S n))

/-- The normaliser of a row: the sum of its weights plus `1e-8`. -/
def total (x : Fin 512 → EReal) (P : Fin 4096 → Fin 512 → EReal) (T S : Fin 4096 → EReal) : EReal :=
  (∑ n : Fin 4096, weight x P T S n) + Ideal.ofBits .f32 0x322BCC77#32

/-- The row's result at feature `d`: the normalised weights' combination of the centres' values. -/
def rbfRow (x : Fin 512 → EReal) (P V : Fin 4096 → Fin 512 → EReal) (T S : Fin 4096 → EReal) (d : Fin 512) : EReal :=
  ∑ n : Fin 4096, Ideal.div (weight x P T S n) (total x P T S) * V n d

/-- The whole result as an array: row `r` of the `[16384, 512]` result is the row function of row `r` of the flattened input `X`,
    over the centres `P`, the values `V` and the two width vectors. -/
def rbfArray (X : (⟨2, ![16384, 512]⟩ : Shape).Idx → EReal) (P V : (⟨2, ![4096, 512]⟩ : Shape).Idx → EReal)
    (T S : (⟨1, ![4096]⟩ : Shape).Idx → EReal) : (⟨2, ![16384, 512]⟩ : Shape).Idx → EReal :=
  fun i => rbfRow (fun k => X (ValueIdx.ix2 (⟨(i 0).val, ValueIdx.idx2_lt0 i⟩ : Fin 16384) k)) (fun n k => P (ValueIdx.ix2 n k))
    (fun n k => V (ValueIdx.ix2 n k)) (fun n => T (ValueIdx.ix1 n)) (fun n => S (ValueIdx.ix1 n))
    (⟨(i 1).val, ValueIdx.idx2_lt1 i⟩ : Fin 512)

/-- The row function depends on its arguments only. -/
theorem rbfRow_congr {x x' : Fin 512 → EReal} {P P' V V' : Fin 4096 → Fin 512 → EReal} {T T' S S' : Fin 4096 → EReal}
    {d d' : Fin 512} (hx : x = x') (hP : P = P') (hV : V = V') (hT : T = T') (hS : S = S') (hd : d = d') :
    rbfRow x P V T S d = rbfRow x' P' V' T' S' d' := by
  subst hx hP hV hT hS hd; rfl

end Cert.Rbf

end
-- ==== Proof.RefRow.lean ====
/-
  The reference computes the row function: its last matrix product, read at row `r` and feature `d`, is
  `Cert.Rbf.rbfRow` of row `r` of the flattened input, the centres, the values and the two width vectors.

  Stage by stage, following the reference's own operations read at an index: the two squared norms (a host sum is
  its zero initial value plus the sum over the lanes), the cross term (a `dot_general` is the sum over the contracted
  coordinate, its right operand the transposed centres), the clamped root, the widths, the weights, the normaliser
  and the final product. No algebra is needed: each stage is the specification's stage once the indices are named
  by their coordinates.
-/
import proofs.«179823_j18339510354292_1_alg».proof.Proof.Gen.ReferenceIdeal.Read
import proofs.«179823_j18339510354292_1_alg».proof.Proof.RbfSpec

noncomputable section

open scoped BigOperators

namespace Cert.Rbf.Reference

open Cert.ReferenceIdeal Cert.ReferenceIdeal.Read Idealize.ShloMosaic Idealize.ShloMosaic.ValueIdx Cert.Rbf

variable (x0 : (⟨S8x2048x512, .f32⟩ : BufTy).Contents (Elt Ideal))
variable (x1 x2 : (⟨S4096x512, .f32⟩ : BufTy).Contents (Elt Ideal))
variable (x3 x4 : (⟨S4096, .f32⟩ : BufTy).Contents (Elt Ideal))

/-- Row `r` of the input flattened to `[16384, 512]`. -/
def xrow (r : Fin 16384) : Fin 512 → EReal := fun k => val_main_v0 (F := Ideal) x0 (ix2 r k)

/-- A `[4096, 512]` array by rows. -/
def rows (A : (⟨S4096x512, .f32⟩ : BufTy).Contents (Elt Ideal)) : Fin 4096 → Fin 512 → EReal := fun n k => A (ix2 n k)

/-- A `[4096]` array by entries. -/
def entries (A : (⟨S4096, .f32⟩ : BufTy).Contents (Elt Ideal)) : Fin 4096 → EReal := fun n => A (ix1 n)

/-- The squared norm of input row `r`. -/
theorem sq_x (r : Fin 16384) : val_main_v2 (F := Ideal) x0 (ix1 r) = sqnorm (xrow x0 r) := by
  rw [val_main_v2_apply, val_main_cst_apply]
  show Ideal.ofBits .f32 0x00000000#32 + _ = _
  rw [Ideal.ofBits_zero_f32, zero_add]
  refine Finset.sum_congr rfl fun k _ => ?_
  rw [val_main_v1_apply]
  have e : idx_main_v2 (ix1 r) k = ix2 r k := funext fun a => Fin.ext (by
    match a with
    | ⟨0, _⟩ => rfl
    | ⟨1, _⟩ => rfl)
  rw [e]
  rfl

/-- The squared norm of centre `n`. -/
theorem sq_p (n : Fin 4096) : val_main_v5 (F := Ideal) x1 (ix1 n) = sqnorm (rows x1 n) := by
  rw [val_main_v5_apply, val_main_cst_0_apply]
  show Ideal.ofBits .f32 0x00000000#32 + _ = _
  rw [Ideal.ofBits_zero_f32, zero_add]
  refine Finset.sum_congr rfl fun k _ => ?_
  rw [val_main_v4_apply]
  have e : idx_main_v5 (ix1 n) k = ix2 n k := funext fun a => Fin.ext (by
    match a with
    | ⟨0, _⟩ => rfl
    | ⟨1, _⟩ => rfl)
  rw [e]
  rfl

/-- The inner product of input row `r` with centre `n`. -/
theorem cross (r : Fin 16384) (n : Fin 4096) :
    val_main_v11 (F := Ideal) x0 x1 (ix2 r n) = dotp (xrow x0 r) (rows x1 n) := by
  rw [val_main_v11_apply]
  refine Finset.sum_congr rfl fun k _ => ?_
  rw [val_main_v10_apply]
  have e1 : lidx_main_v11 (ix2 r n) k = ix2 r k := funext fun a => Fin.ext (by
    match a with
    | ⟨0, _⟩ => rfl
    | ⟨1, _⟩ => rfl)
  have e2 : idx_main_v10 (ridx_main_v11 (ix2 r n) k) = ix2 n k := funext fun a => Fin.ext (by
    match a with
    | ⟨0, _⟩ => rfl
    | ⟨1, _⟩ => rfl)
  rw [e1, e2]
  rfl

/-- The distance from input row `r` to centre `n`. -/
theorem dist_eq (r : Fin 16384) (n : Fin 4096) :
    val_main_v17 (F := Ideal) x0 x1 (ix2 r n) = dist (xrow x0 r) (rows x1) n := by
  rw [val_main_v17_apply, val_main_v16_apply, val_main_v15_apply, val_main_cst_2_apply, val_main_v14_apply,
    val_main_v9_apply, val_main_v7_apply, val_main_v3_apply, val_main_v8_apply, val_main_v6_apply,
    val_main_v13_apply, val_main_v12_apply, val_main_cst_1_apply]
  have e1 : idx_main_v3 (idx_main_v7 (ix2 r n)) = ix1 r := funext fun a => Fin.ext (by
    match a with
    | ⟨0, _⟩ => rfl)
  have e2 : idx_main_v6 (idx_main_v8 (ix2 r n)) = ix1 n := funext fun a => Fin.ext (by
    match a with
    | ⟨0, _⟩ => rfl)
  rw [e1, e2, sq_x, sq_p, cross]
  show Ideal.sqrt (max _ (Ideal.ofBits .f32 0x00000000#32)) = _
  rw [Ideal.ofBits_zero_f32]
  rfl

/-- The width of centre `n`. -/
theorem width_eq (n : Fin 4096) : val_main_v21 (F := Ideal) x3 x4 (ix1 n) = width (entries x3) (entries x4) n := by
  rw [val_main_v21_apply, val_main_v20_apply, val_main_v18_apply, val_main_v19_apply, val_main_cst_3_apply]
  rfl

/-- The weight of centre `n` for input row `r`. -/
theorem weight_eq (r : Fin 16384) (n : Fin 4096) :
    val_main_v26 (F := Ideal) x0 x1 x3 x4 (ix2 r n) = weight (xrow x0 r) (rows x1) (entries x3) (entries x4) n := by
  rw [val_main_v26_apply, val_main_v25_apply, val_main_v22_apply, dist_eq, val_main_v24_apply, val_main_v23_apply]
  have e : idx_main_v23 (idx_main_v24 (ix2 r n)) = ix1 n := funext fun a => Fin.ext (by
    match a with
    | ⟨0, _⟩ => rfl)
  rw [e, width_eq]
  rfl

/-- The normaliser of input row `r`. -/
theorem total_eq (r : Fin 16384) :
    val_main_v30 (F := Ideal) x0 x1 x3 x4 (ix2 r (0 : Fin 1)) = total (xrow x0 r) (rows x1) (entries x3) (entries x4) := by
  rw [val_main_v30_apply, val_main_v28_apply, val_main_v27_apply, val_main_cst_4_apply, val_main_v29_apply,
    val_main_cst_5_apply]
  show (Ideal.ofBits .f32 0x00000000#32 + _) + Ideal.ofBits .f32 0x322BCC77#32 = _
  rw [Ideal.ofBits_zero_f32, zero_add]
  refine congrArg (· + Ideal.ofBits .f32 0x322BCC77#32) (Finset.sum_congr rfl fun k _ => ?_)
  have e : idx_main_v27 (idx_main_v28 (ix2 r (0 : Fin 1))) k = ix2 r k := funext fun a => Fin.ext (by
    match a with
    | ⟨0, _⟩ => rfl
    | ⟨1, _⟩ => rfl)
  rw [e, weight_eq]

/-- THE REFERENCE'S PRODUCT at row `r`, feature `d`, is the row function of input row `r`. -/
theorem out_eq (r : Fin 16384) (d : Fin 512) :
    val_main_v33 (F := Ideal) x0 x1 x2 x3 x4 (ix2 r d)
      = rbfRow (xrow x0 r) (rows x1) (rows x2) (entries x3) (entries x4) d := by
  rw [val_main_v33_apply]
  refine Finset.sum_congr rfl fun k _ => ?_
  have e1 : lidx_main_v33 (ix2 r d) k = ix2 r k := funext fun a => Fin.ext (by
    match a with
    | ⟨0, _⟩ => rfl
    | ⟨1, _⟩ => rfl)
  have e2 : ridx_main_v33 (ix2 r d) k = ix2 k d := funext fun a => Fin.ext (by
    match a with
    | ⟨0, _⟩ => rfl
    | ⟨1, _⟩ => rfl)
  rw [e1, e2, val_main_v32_apply, weight_eq, val_main_v31_apply]
  have e3 : idx_main_v31 (ix2 r k) = ix2 r (0 : Fin 1) := funext fun a => Fin.ext (by
    match a with
    | ⟨0, _⟩ => rfl
    | ⟨1, _⟩ => rfl)
  rw [e3, total_eq]
  rfl

/-- The reference's product as an array: the row function on every row of the flattened input. -/
theorem array_eq : val_main_v33 (F := Ideal) x0 x1 x2 x3 x4 = rbfArray (val_main_v0 (F := Ideal) x0) x1 x2 x3 x4 := by
  funext i
  obtain ⟨r, d, rfl⟩ : ∃ (r : Fin 16384) (d : Fin 512), i = ix2 r d := ⟨i 0, i 1, eq_ix2 i⟩
  exact out_eq x0 x1 x2 x3 x4 r d

end Cert.Rbf.Reference

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibRowSum.lean ====
/-
  A lane sum read at a row: a float `vector.multi_reduction <add>` of an `[a, b]` vector over its second axis, at the
  ideal values, reads at row `p` the sum over the lanes `k : Fin b` of the entries `(p, k)` — for any extents and
  any float format, whatever the (neutral) accumulator word.
-/
import Idealize.ShloMosaic.Lib.ValueIdx
import Idealize.ShloMosaic.PureOps.Ideal.Laws

noncomputable section

open scoped BigOperators

namespace Cert.LibRowSum

open Idealize.ShloMosaic Idealize.ShloMosaic.ValueIdx

/-- The sum of an `[a, b]` vector along its lanes, read at row `p`: `∑ₖ src (p, k)`. -/
theorem multiReduction_add_lanes_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibRowSum

end
-- ==== Proof.BodyRow.lean ====
/-
  The kernel's body computes the row function on its block: what one grid point stores, read at local row `p` and
  feature `d`, is `Cert.Rbf.rbfRow` of row `p` of the point's input block, the centres, the values and the two
  width rows.

  The body's arithmetic is regrouped into the row's quantities — the squared norms spread over the `[256, 4096]`
  tile, the cross term (a matrix product with the transposed centres into a zero accumulator), the widths' row —
  and each is read at an index: a lane sum is the sum over the lanes, a product into zero the sum over the contracted
  coordinate, a kept axis is laid out as a column or a row and spread over the tile. The changes of float format
  are the identity on the extended reals, and `0 − s = −s` there.
-/
import proofs.«179823_j18339510354292_1_alg».proof.Proof.Gen.KernelIdeal.Frame
import proofs.«179823_j18339510354292_1_alg».proof.Proof.RbfSpec
import proofs.«179823_j18339510354292_1_alg».proof.Proof.LibColumn
import proofs.«179823_j18339510354292_1_alg».proof.Proof.LibBlock
import proofs.«179823_j18339510354292_1_alg».proof.Proof.LibRowSum
import Idealize.ShloMosaic.Lib.Pipeline.Value
import Idealize.ShloMosaic.Lib.ValueLayout
import Idealize.ShloMosaic.PureOps.Ideal.Laws

noncomputable section

open scoped BigOperators

namespace Cert.Rbf.Body

open Cert.KernelIdeal Cert.KernelIdeal.Gen Idealize.ShloMosaic Idealize.ShloMosaic.ValueIdx Cert.Rbf
/-- The squared norms of a block's 256 rows, spread over the 4096 lanes. -/
def rowSq (v : FVec Ideal S256x512 .f32) : FVec Ideal S256x4096 .f32 :=
  broadcastTo S256x4096 (shapeCast S256x1
    (multiReduction .add [1] S256 (mulf v v) 0x00000000#32 reduces_S256x512_S256 (.inl rfl) rfl) shapeCasts_S256_S256x1)
    broadcasts_S256x1_S256x4096

/-- The squared norms of the 4096 centres, one per lane, repeated on the 256 rows. -/
def colSq (w : FVec Ideal S4096x512 .f32) : FVec Ideal S256x4096 .f32 :=
  broadcastTo S256x4096 (shapeCast S1x4096
    (multiReduction .add [1] S4096 (mulf w w) 0x00000000#32 reduces_S4096x512_S4096 (.inl rfl) rfl) shapeCasts_S4096_S1x4096)
    broadcasts_S1x4096_S256x4096

/-- The inner products of the block's rows with the centres. -/
def crossT (v : FVec Ideal S256x512 .bf16) (w : FVec Ideal S4096x512 .bf16) : FVec Ideal S256x4096 .f32 :=
  matmul dot_S256x512_S512x4096_S256x4096_1_0_0_1_n_n none v
    (transpose S512x4096 [1, 0] w transposes_S4096x512_p1_0_S512x4096) (constant S256x4096 .f32 0x00000000#32)

/-- The widths, one per lane, repeated on the 256 rows. -/
def widthT (tr sr : FVec Ideal S1x4096 .f32) : FVec Ideal S256x4096 .f32 :=
  broadcastTo S256x4096 (mulf (addf (absf tr) (broadcast S1x4096 (Scalar.ofBits .f32 0x3DCCCCCD#32))) sr)
    broadcasts_S1x4096_S256x4096

/-- The tile of weights, in the body's own operations over those four. -/
def weightT (v : FVec Ideal S256x512 .bf16) (w : FVec Ideal S4096x512 .bf16) (tr sr : FVec Ideal S1x4096 .f32) :
    FVec Ideal S256x4096 .f32 :=
  exp (divf (subf (broadcast S256x4096 (Scalar.ofBits .f32 0x00000000#32))
      (sqrt (maximumf (subf (addf (rowSq (extf .f32 v bitsLt_bf16_f32)) (colSq (extf .f32 w bitsLt_bf16_f32)))
          (mulf (broadcast S256x4096 (Scalar.ofBits .f32 0x40000000#32)) (crossT v w)))
        (broadcast S256x4096 (Scalar.ofBits .f32 0x00000000#32)))))
    (widthT tr sr))

/-- The body's weights are that tile (its casts to the same shape dropped). -/
theorem pay3_eq (x0 : Vec Ideal S256x512 .bf16) (x1 : Vec Ideal S4096x512 .bf16) (x3 x4 : Vec Ideal S1x4096 .f32) :
    k0_pay3 (F := Ideal) x0 x1 x3 x4 = weightT x0 x1 x3 x4 := by
  unfold k0_pay3
  simp only [shapeCast_self]
  rfl

/-- Row `p` of a `[256, 512]` block. -/
def brow (v : S256x512.Idx → EReal) (p : Fin 256) : Fin 512 → EReal := fun k => v (ix2 p k)
/-- A `[4096, 512]` block by rows. -/
def rows (w : S4096x512.Idx → EReal) : Fin 4096 → Fin 512 → EReal := fun n k => w (ix2 n k)
/-- A `[1, 4096]` block by entries. -/
def entries (a : S1x4096.Idx → EReal) : Fin 4096 → EReal := fun n => a (ix2 (0 : Fin 1) n)

theorem rowSq_apply (v : FVec Ideal S256x512 .f32) (p : Fin 256) (n : Fin 4096) :
    rowSq v (ix2 p n) = sqnorm (brow v p) := by
  unfold rowSq
  rw [Cert.LibColumn.broadcastTo_a1_ab_apply, Cert.LibColumn.shapeCast_a_a1_apply]
  exact Cert.LibRowSum.multiReduction_add_lanes_apply (mulf v v) _ _ _ _ p

theorem colSq_apply (w : FVec Ideal S4096x512 .f32) (p : Fin 256) (n : Fin 4096) :
    colSq w (ix2 p n) = sqnorm (rows w n) := by
  unfold colSq
  rw [broadcastTo_1b_ab_apply, shapeCast_a_1a_apply]
  exact Cert.LibRowSum.multiReduction_add_lanes_apply (mulf w w) _ _ _ _ n

theorem crossT_apply (v : FVec Ideal S256x512 .bf16) (w : FVec Ideal S4096x512 .bf16) (p : Fin 256) (n : Fin 4096) :
    crossT v w (ix2 p n) = dotp (brow v p) (rows w n) := by
  unfold crossT
  refine (Cert.LibBlock.matmul_zero_ix2 dot_S256x512_S512x4096_S256x4096_1_0_0_1_n_n rfl rfl rfl rfl rfl rfl none v _ p n).trans ?_
  refine Finset.sum_congr rfl fun k _ => ?_
  rw [transpose_ix2_apply]
  rfl

theorem widthT_apply (tr sr : FVec Ideal S1x4096 .f32) (p : Fin 256) (n : Fin 4096) :
    widthT tr sr (ix2 p n) = width (entries tr) (entries sr) n := by
  unfold widthT
  rw [broadcastTo_1b_ab_apply]
  rfl

/-- The weight at local row `p` and centre `n`. -/
theorem weightT_apply (v : FVec Ideal S256x512 .bf16) (w : FVec Ideal S4096x512 .bf16) (tr sr : FVec Ideal S1x4096 .f32)
    (p : Fin 256) (n : Fin 4096) :
    weightT v w tr sr (ix2 p n) = weight (brow v p) (rows w) (entries tr) (entries sr) n := by
  show Ideal.exp (Ideal.div (Ideal.ofBits .f32 0x00000000#32 -
      Ideal.sqrt (max ((rowSq (extf .f32 v bitsLt_bf16_f32) (ix2 p n) + colSq (extf .f32 w bitsLt_bf16_f32) (ix2 p n))
        - Ideal.ofBits .f32 0x40000000#32 * crossT v w (ix2 p n)) (Ideal.ofBits .f32 0x00000000#32)))
      (widthT tr sr (ix2 p n))) = _
  rw [rowSq_apply, colSq_apply, crossT_apply, widthT_apply, Ideal.ofBits_zero_f32, zero_sub]
  rfl

/-- The body's normaliser before the `1e-8`: at local row `p` the sum of the row's weights. -/
theorem pay4_apply (x0 : Vec Ideal S256x512 .bf16) (x1 : Vec Ideal S4096x512 .bf16) (x3 x4 : Vec Ideal S1x4096 .f32)
    (p : Fin 256) :
    k0_pay4 (F := Ideal) x0 x1 x3 x4 (ix2 p (0 : Fin 1))
      = ∑ n : Fin 4096, weight (brow x0 p) (rows x1) (entries x3) (entries x4) n := by
  unfold k0_pay4
  rw [pay3_eq]
  refine (Cert.LibColumn.shapeCast_a_a1_apply _ _ p (0 : Fin 1)).trans ?_
  refine (Cert.LibRowSum.multiReduction_add_lanes_apply (weightT x0 x1 x3 x4) _ _ _ _ p).trans ?_
  exact Finset.sum_congr rfl fun n _ => weightT_apply x0 x1 x3 x4 p n

/-- The stored product at local row `p`, feature `d`, over the tile of weights `e`, the column of their sums `s`
    and the values `vals`: `∑ₙ (e (p, n) / (s p + c)) · vals (n, d)`. -/
theorem pay1_apply (vals : FVec Ideal S4096x512 .bf16) (e : FVec Ideal S256x4096 .f32) (s : FVec Ideal S256x1 .f32)
    (c : Ideal .f32) (p : Fin 256) (d : Fin 512) :
    k0_pay1 (F := Ideal) vals e s c (ix2 p d)
      = ∑ n : Fin 4096, Ideal.div (e (ix2 p n)) (s (ix2 p (0 : Fin 1)) + c) * vals (ix2 n d) := by
  unfold k0_pay1
  refine (Cert.LibBlock.matmul_zero_ix2 dot_S256x4096_S4096x512_S256x512_1_0_0_1_n_n rfl rfl rfl rfl rfl rfl none _ vals p d).trans ?_
  refine Finset.sum_congr rfl fun n _ => ?_
  show Ideal.div (e (ix2 p n)) (broadcastTo S256x4096 (addf s (broadcast S256x1 c)) broadcasts_S256x1_S256x4096 (ix2 p n))
    * vals (ix2 n d) = _
  rw [Cert.LibColumn.broadcastTo_a1_ab_apply]
  rfl

/-- The zero offsets of a rank-2 rectangle are the constant function `0`. -/
theorem hz : (![0, 0] : Fin 2 → Nat) = fun _ => 0 := Cert.LibBlock.hz

/-- WHAT ONE POINT STORES, at local row `p` and feature `d`: the row function of row `p` of its input block. -/
theorem out_apply (x0 : Vec Ideal S256x512 .bf16) (x1 x2 : Vec Ideal S4096x512 .bf16) (x3 x4 : Vec Ideal S1x4096 .f32)
    (p : Fin 256) (d : Fin 512) :
    out0_5 (F := Ideal) x0 x1 x2 x3 x4 (ix2 p d)
      = rbfRow (brow x0 p) (rows x1) (rows x2) (entries x3) (entries x4) d := by
  unfold out0_5
  rw [View.canon_unit_zero hz]
  simp only [View.ld_unit_zero (S := S256x512) hz, View.ld_unit_zero (S := S4096x512) hz, View.ld_unit_zero (S := S1x4096) hz]
  rw [pay1_apply, pay4_apply, pay3_eq]
  refine Finset.sum_congr rfl fun n _ => ?_
  rw [weightT_apply]
  unfold k0_pay2
  rw [shapeCast_self]
  rfl

/-- The same at any index of the block. -/
theorem out_read (x0 : Vec Ideal S256x512 .bf16) (x1 x2 : Vec Ideal S4096x512 .bf16) (x3 x4 : Vec Ideal S1x4096 .f32)
    (y : S256x512.Idx) :
    out0_5 (F := Ideal) x0 x1 x2 x3 x4 y
      = rbfRow (brow x0 (y 0)) (rows x1) (rows x2) (entries x3) (entries x4) (y 1) := by
  obtain ⟨p, d, rfl⟩ : ∃ (p : Fin 256) (d : Fin 512), y = ix2 p d := ⟨y 0, y 1, eq_ix2 y⟩
  exact out_apply x0 x1 x2 x3 x4 p d

end Cert.Rbf.Body

end
-- ==== Proof.Blocks.lean ====
/-
  From blocks to the array: the 64 grid points each store a `[256, 512]` block, point `t` the rows
  `256·t … 256·t + 255` of the `[16384, 512]` result, and together the blocks tile it. Every point sees the same
  centres, values and width rows (their blocks are the whole arrays) and rows `256·t …` of the flattened input, so what
  point `t` writes back is block `t` of ONE array: the row function on every row. The array after the region is
  that array.
-/
import proofs.«179823_j18339510354292_1_alg».proof.Proof.Gen.KernelIdeal.Frame
import proofs.«179823_j18339510354292_1_alg».proof.Proof.BodyRow

noncomputable section

open scoped BigOperators

namespace Cert.Rbf.Blocks

open Cert.KernelIdeal Cert.KernelIdeal.Gen Idealize.ShloMosaic Idealize.ShloMosaic.TcCoe Idealize.SL.Sem
open Idealize.ShloMosaic.ValueIdx Cert.Rbf
open Idealize.ShloMosaic.Pipeline (Dat)

variable (m : (ℓ : Loc nD τ sig) → Buf (Elt Ideal) ℓ) (ρ : Dev nD → PrngReg)

/-- The result array over the five arrays the region stages: the flattened input `A1`, the centres `A2`, the values
    `A3` and the two `[1, 4096]` width rows. -/
def G (A1 : S16384x512.Idx → EReal) (A2 A3 : S4096x512.Idx → EReal) (A4 A5 : S1x4096.Idx → EReal) :
    S16384x512.Idx → EReal :=
  fun i => rbfRow (fun k => A1 (ix2 (⟨(i 0).val, idx2_lt0 i⟩ : Fin 16384) k)) (Body.rows A2) (Body.rows A3)
    (Body.entries A4) (Body.entries A5) (⟨(i 1).val, idx2_lt1 i⟩ : Fin 512)

/-- The printed index maps over the grid: the input's block moves with the output's along the rows, every other block
    index is zero, and the output's row block index is the point's number, below 64. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) ≤ 63 :=
  (by decide +kernel : ∀ t : Fin grid0.N, _)

/-- Every row block is some point's. -/
theorem idx_onto : ∀ q : Fin 64, ∃ t : Fin cfg0.N, win0_5.index t = ![q.val, 0] :=
  (by decide +kernel : ∀ q : Fin 64, ∃ t : Fin grid0.N, win0_5.index t = ![q.val, 0])

/-- WHAT POINT `t` WRITES BACK is block `t` of the result array over the arrays as the region finds them. -/
theorem flushed_eq (c : Dev nD) (t : Fin cfg0.N) :
    (dats m 0 c).flushed 5 t = ((cfg0.win 5).blk t).view.read (Elt Ideal)
      (G (V m c main_v1) (V m c main_v2) (V m c main_v3) (V m c main_v4) (V m c main_v5)) := by
  show (cfg0.win 5).cut (grid0.coords t) ((dats m 0 c).after 5 t) = _
  rw [after0_5]
  obtain ⟨e0, e1, e2, e3, e4, e5, e6, e7, e8, e9, e10, e11⟩ := idx_facts t
  funext j
  show out0_5 (iblk m c 0 t) (iblk m c 1 t) (iblk m c 2 t) (iblk m c 3 t) (iblk m c 4 t) j
    = G (V m c main_v1) (V m c main_v2) (V m c main_v3) (V m c main_v4) (V m c main_v5) (((cfg0.win 5).blk t).view.emb j)
  refine (Body.out_read (iblk m c 0 t) (iblk m c 1 t) (iblk m c 2 t) (iblk m c 3 t) (iblk m c 4 t) j).trans ?_
  unfold G
  refine rbfRow_congr ?_ ?_ ?_ ?_ ?_ ?_
  · funext k
    show V m c main_v1 (((cfg0.win 0).blk t).view.emb (ix2 (j 0) k)) = V m c main_v1 _
    refine congrArg (V m c main_v1) (funext fun a => Fin.ext ?_)
    match a with
    | ⟨0, _⟩ =>
      show win0_0.index t (0 : Fin 2) * 256 + 1 * (j 0).val = win0_5.index t (0 : Fin 2) * 256 + 1 * (j 0).val
      omega
    | ⟨1, _⟩ =>
      show win0_0.index t (1 : Fin 2) * 512 + 1 * k.val = k.val
      omega
  · funext n k
    show V m c main_v2 (((cfg0.win 1).blk t).view.emb (ix2 n k)) = V m c main_v2 (ix2 n k)
    refine congrArg (V m c main_v2) (funext fun a => Fin.ext ?_)
    match a with
    | ⟨0, _⟩ => show win0_1.index t (0 : Fin 2) * 4096 + 1 * n.val = n.val; omega
    | ⟨1, _⟩ => show win0_1.index t (1 : Fin 2) * 512 + 1 * k.val = k.val; omega
  · funext n k
    show V m c main_v3 (((cfg0.win 2).blk t).view.emb (ix2 n k)) = V m c main_v3 (ix2 n k)
    refine congrArg (V m c main_v3) (funext fun a => Fin.ext ?_)
    match a with
    | ⟨0, _⟩ => show win0_2.index t (0 : Fin 2) * 4096 + 1 * n.val = n.val; omega
    | ⟨1, _⟩ => show win0_2.index t (1 : Fin 2) * 512 + 1 * k.val = k.val; omega
  · funext n
    show V m c main_v4 (((cfg0.win 3).blk t).view.emb (ix2 (0 : Fin 1) n)) = V m c main_v4 (ix2 (0 : Fin 1) n)
    refine congrArg (V m c main_v4) (funext fun a => Fin.ext ?_)
    match a with
    | ⟨0, _⟩ => show win0_3.index t (0 : Fin 2) * 1 + 1 * 0 = 0; omega
    | ⟨1, _⟩ => show win0_3.index t (1 : Fin 2) * 4096 + 1 * n.val = n.val; omega
  · funext n
    show V m c main_v5 (((cfg0.win 4).blk t).view.emb (ix2 (0 : Fin 1) n)) = V m c main_v5 (ix2 (0 : Fin 1) n)
    refine congrArg (V m c main_v5) (funext fun a => Fin.ext ?_)
    match a with
    | ⟨0, _⟩ => show win0_4.index t (0 : Fin 2) * 1 + 1 * 0 = 0; omega
    | ⟨1, _⟩ => show win0_4.index t (1 : Fin 2) * 4096 + 1 * n.val = n.val; omega
  · refine Fin.ext ?_
    show (j 1).val = win0_5.index t (1 : Fin 2) * 512 + 1 * (j 1).val
    omega

/-- An index of the result is in point `t`'s block iff each coordinate is in the block's range on its axis. -/
theorem mem_blk (t : Fin cfg0.N) (i : S16384x512.Idx) :
    i ∈ ((cfg0.win 5).blk t).view.set ↔ ∀ a : Fin 2, win0_5.index t a * S256x512.size a ≤ (i a).val
      ∧ (i a).val < win0_5.index t a * S256x512.size a + S256x512.size a := by
  show i ∈ ((View.whole main_v6).slice (win0_5.rect t)).set ↔ _
  rw [View.set_slice_whole, Rect.mem_set_unit]
  exact Iff.rfl

/-- The blocks tile the result: row `r` lies in the block of point `r / 256`. -/
theorem cover (i : S16384x512.Idx) :
    ∃ t : Fin cfg0.N, (cfg0.win 5).flush t = true ∧ i ∈ ((cfg0.win 5).blk t).view.set := by
  have hi0 : (i 0).val < 16384 := (i 0).isLt
  have hi1 : (i 1).val < 512 := (i 1).isLt
  obtain ⟨t, ht⟩ := idx_onto ⟨(i 0).val / 256, by omega⟩
  have q0 : win0_5.index t (0 : Fin 2) = (i 0).val / 256 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 256 ≤ (i 0).val ∧ (i 0).val < win0_5.index t (0 : Fin 2) * 256 + 256
    omega
  | ⟨1, _⟩ =>
    show win0_5.index t (1 : Fin 2) * 512 ≤ (i 1).val ∧ (i 1).val < win0_5.index t (1 : Fin 2) * 512 + 512
    omega

/-- THE ARRAY after the region: the result array over the arrays as the region finds them. -/
theorem final (c : Dev nD) :
    (dats m 0 c).arrAt 5 cfg0.N = G (V m c main_v1) (V m c main_v2) (V m c main_v3) (V m c main_v4) (V m c main_v5) :=
  (dats m 0 c).arrAt_eq_of_cover 5 _ (fun t _ => flushed_eq m c t) cover

end Cert.Rbf.Blocks

end
-- ==== Proof.KernelRun.lean ====
/-
  The kernel program's run, read: around the region the host only re-lays data — the input flattened to
  `[16384, 512]`, three changes of float format (the identity on the extended reals), the two width vectors laid out
  as `[1, 4096]` rows, and the region's `[16384, 512]` result cast back to `[8, 2048, 512]`. So the program's result is
  the cast of the row function on every row of the flattened input, over the argument arrays themselves.
-/
import proofs.«179823_j18339510354292_1_alg».proof.Proof.Gen.KernelIdeal.Frame
import proofs.«179823_j18339510354292_1_alg».proof.Proof.Blocks
import Idealize.ShloMosaic.Lib.StableHlo.Run
import Idealize.ShloMosaic.Lib.ValueLayout
import Idealize.ShloMosaic.PureOps.Ideal

noncomputable section

namespace Cert.Rbf.Run

open Cert.KernelIdeal Cert.KernelIdeal.Gen Idealize.ShloMosaic Idealize.ShloMosaic.TcCoe Idealize.SL.Sem
open Idealize.ShloMosaic.StableHlo Idealize.ShloMosaic.ValueIdx Cert.Rbf
open Idealize.ShloMosaic.Pipeline (Dat)

variable (m : (ℓ : Loc nD τ sig) → Buf (Elt Ideal) ℓ) (ρ : Dev nD → PrngReg)

/-! ## The arrays the region finds -/

/-- The flattened input, its format changed. -/
theorem V1 (c : Dev nD) : (V m c main_v1 : S16384x512.Idx → EReal)
    = (truncf .bf16 (shapeCast S16384x512 (m ((c : Thread nD τ).loc main_arg0)) shapeCasts_S8x2048x512_S16384x512)
        bitsLt_bf16_f32 : FVec Ideal S16384x512 .bf16) := by
  show StableHlo.after hostOps0 (fun b => m (c, b)) (Proc.devRef .tc main_v1) = _
  after_results
  rfl

/-- The centres, their format changed. -/
theorem V2 (c : Dev nD) : (V m c main_v2 : S4096x512.Idx → EReal)
    = (truncf .bf16 (m ((c : Thread nD τ).loc main_arg1)) bitsLt_bf16_f32 : FVec Ideal S4096x512 .bf16) := by
  show StableHlo.after hostOps0 (fun b => m (c, b)) (Proc.devRef .tc main_v2) = _
  after_results

/-- The values, their format changed. -/
theorem V3 (c : Dev nD) : (V m c main_v3 : S4096x512.Idx → EReal)
    = (truncf .bf16 (m ((c : Thread nD τ).loc main_arg2)) bitsLt_bf16_f32 : FVec Ideal S4096x512 .bf16) := by
  show StableHlo.after hostOps0 (fun b => m (c, b)) (Proc.devRef .tc main_v3) = _
  after_results

/-- The first width vector as a row. -/
theorem V4 (c : Dev nD) : (V m c main_v4 : S1x4096.Idx → EReal)
    = shapeCast S1x4096 (m ((c : Thread nD τ).loc main_arg3)) shapeCasts_S4096_S1x4096 := by
  show StableHlo.after hostOps0 (fun b => m (c, b)) (Proc.devRef .tc main_v4) = _
  after_results
  rfl

/-- The second width vector as a row. -/
theorem V5 (c : Dev nD) : (V m c main_v5 : S1x4096.Idx → EReal)
    = shapeCast S1x4096 (m ((c : Thread nD τ).loc main_arg4)) shapeCasts_S4096_S1x4096 := by
  show StableHlo.after hostOps0 (fun b => m (c, b)) (Proc.devRef .tc main_v5) = _
  after_results
  rfl

/-- The region's result over the argument arrays: the row function on every row of the flattened input. -/
theorem region_result (c : Dev nD) :
    (dats m 0 c).arrAt 5 cfg0.N
      = rbfArray (shapeCast S16384x512 (m ((c : Thread nD τ).loc main_arg0)) shapeCasts_S8x2048x512_S16384x512)
          (m ((c : Thread nD τ).loc main_arg1)) (m ((c : Thread nD τ).loc main_arg2))
          (m ((c : Thread nD τ).loc main_arg3)) (m ((c : Thread nD τ).loc main_arg4)) := by
  rw [Blocks.final, V1, V2, V3, V4, V5]
  funext i
  unfold Blocks.G rbfArray
  refine rbfRow_congr rfl rfl rfl ?_ ?_ rfl
  · funext n
    exact shapeCast_a_1a_apply _ _ (0 : Fin 1) n
  · funext n
    exact shapeCast_a_1a_apply _ _ (0 : Fin 1) n

/-! ## The cast after the region -/

/-- The program's result buffer after the last host line: the region's array cast to `[8, 2048, 512]`. -/
theorem tail_result (c : Dev nD) :
    Pipeline.afterTail₀ cfgs (dats m) 0 (V0 m) [hostOps1] c main_v7
      = shapeCast S8x2048x512 ((dats m 0 c).arrAt 5 cfg0.N) shapeCasts_S16384x512_S8x2048x512 := by
  unfold Pipeline.afterTail₀
  show StableHlo.after hostOps1 _ (Proc.devRef .tc main_v7) = _
  after_results
  have hw : Pipeline.withArrays (cfgs 0).spec c (V0 m c) (fun w => (dats m 0 c).arrAt w (cfgs 0).N)
      (Proc.devRef .tc main_v6) = (dats m 0 c).arrAt 5 cfg0.N :=
    Pipeline.withArrays_arr spec0 launch0.win.arr_inj c _ _ 5
  rw [hw]
  rfl

/-! ## The run -/

/-- Every weakly fair execution of the kernel program terminates with its result at the cast of the row function on every
    row of the flattened input, and its arguments unchanged. -/
theorem run : θ_run defs (onTc (τ := τ) (main (F := Ideal))) ⟨m, fun _ => 0, ρ⟩ fun r => ∀ c : Dev nD,
      r.2.mem ((c.tc : Thread nD τ).loc main_v7)
        = shapeCast S8x2048x512
            (rbfArray (shapeCast S16384x512 (m ((c.tc : Thread nD τ).loc main_arg0)) shapeCasts_S8x2048x512_S16384x512)
              (m ((c.tc : Thread nD τ).loc main_arg1)) (m ((c.tc : Thread nD τ).loc main_arg2))
              (m ((c.tc : Thread nD τ).loc main_arg3)) (m ((c.tc : Thread nD τ).loc main_arg4)))
            shapeCasts_S16384x512_S8x2048x512
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v7 (Pipeline.mem_restRefs_of main_v7 (by decide) (by decide))).trans
        ((tail_result m c).trans (congrArg (shapeCast S8x2048x512 · shapeCasts_S16384x512_S8x2048x512) (region_result m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Rbf.Run

end
-- ==== Proof.lean ====
/-
  The kernel and its reference are one function on the extended reals.

  Both flatten the input to 16384 rows of 512 features and, for each row `x`, weigh 4096 centres by
  `exp(−√(max(|x|² + |pₙ|² − 2⟨x, pₙ⟩, 0)) / ((|tₙ| + 0.1)·sₙ))`, normalise the weights by their sum plus `1e-8` and
  combine the centres' value vectors (Proof/RbfSpec.lean). The reference does this on whole arrays (Proof/RefRow.lean);
  the kernel on 64 blocks of 256 rows, each block's body the same row function (Proof/BodyRow.lean), the blocks tiling
  the result (Proof/Blocks.lean), the host lines around the region only re-laying data and changing float formats,
  which is the identity here (Proof/KernelRun.lean). The two sides apply the same operations in the same order — the
  sums are sums over the same index sets — so no law of the extended reals beyond `0 + s = s` and `0 − s = −s` is
  needed, and the precondition is never opened. No operation of the kernel is rewritten on the way to the extended
  reals, so the kernel is its own idealization.
-/
import proofs.«179823_j18339510354292_1_alg».proof.Defs
import proofs.«179823_j18339510354292_1_alg».proof.Proof.Gen.Kernel
import proofs.«179823_j18339510354292_1_alg».proof.Proof.Gen.Kernel.Skeleton
import proofs.«179823_j18339510354292_1_alg».proof.Proof.Gen.Kernel.Launch
import proofs.«179823_j18339510354292_1_alg».proof.Proof.Gen.Kernel.Points
import proofs.«179823_j18339510354292_1_alg».proof.Proof.Gen.Kernel.Frame
import proofs.«179823_j18339510354292_1_alg».proof.Proof.Gen.KernelIdeal
import proofs.«179823_j18339510354292_1_alg».proof.Proof.Gen.KernelIdeal.Skeleton
import proofs.«179823_j18339510354292_1_alg».proof.Proof.Gen.KernelIdeal.Launch
import proofs.«179823_j18339510354292_1_alg».proof.Proof.Gen.KernelIdeal.Points
import proofs.«179823_j18339510354292_1_alg».proof.Proof.Gen.KernelIdeal.Frame
import proofs.«179823_j18339510354292_1_alg».proof.Proof.Gen.ReferenceIdeal
import proofs.«179823_j18339510354292_1_alg».proof.Proof.Gen.ReferenceIdeal.Run
import proofs.«179823_j18339510354292_1_alg».proof.Proof.Gen.ReferenceIdeal.Read
import proofs.«179823_j18339510354292_1_alg».proof.Proof.Gen.Pre_finite_inputs
import proofs.«179823_j18339510354292_1_alg».proof.Proof.RefRow
import proofs.«179823_j18339510354292_1_alg».proof.Proof.KernelRun
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals. -/
theorem preserves : Cert.preserves_Kernel_KernelIdeal := trivial

/-- From memories agreeing on the arguments both programs end with the cast to `[8, 2048, 512]` of the row function on
    every row of the flattened input. -/
theorem algebraic : Cert.algebraic_KernelIdeal_ReferenceIdeal := by
  intro m ρ m' ρ' _ hagree
  refine ⟨_, Cert.Rbf.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2]
  unfold Cert.ReferenceIdeal.Read.val_main_v34
  rw [Cert.Rbf.Reference.array_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
